-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4x2048x4096 .f32) (main_arg1 : IVec S4096x4096 32) (main_arg2 : FVec F S4096 .f32) (main_arg3 : FVec F S4096 .f32) (main_arg4 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096 .f32 := Host.absf main_arg2
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S4096x1 : Shape := ⟨2, ![4096, 1]⟩
abbrev S1x4096 : Shape := ⟨2, ![1, 4096]⟩
abbrev S256x4096 : Shape := ⟨2, ![256, 4096]⟩
abbrev S256x1 : Shape := ⟨2, ![256, 1]⟩
abbrev S1x256 : Shape := ⟨2, ![1, 256]⟩
abbrev S256x256 : Shape := ⟨2, ![256, 256]⟩

abbrev nBuf : Space → Nat
  | .hbm => 11
  | .vmem => 12
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S8192x4096, .f32⟩
  | .hbm, ⟨6, _⟩ => ⟨S4096x1, .f32⟩
  | .hbm, ⟨7, _⟩ => ⟨S4096x1, .f32⟩
  | .hbm, ⟨8, _⟩ => ⟨S1x4096, .f32⟩
  | .hbm, ⟨9, _⟩ => ⟨S8192x4096, .f32⟩
  | .hbm, ⟨10, _⟩ => ⟨S4x2048x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .i32⟩
  | .local _ .vmem, ⟨3, _⟩ => ⟨S256x4096, .i32⟩
  | .local _ .vmem, ⟨4, _⟩ => ⟨S256x1, .f32⟩
  | .local _ .vmem, ⟨5, _⟩ => ⟨S256x1, .f32⟩
  | .local _ .vmem, ⟨6, _⟩ => ⟨S256x1, .f32⟩
  | .local _ .vmem, ⟨7, _⟩ => ⟨S256x1, .f32⟩
  | .local _ .vmem, ⟨8, _⟩ => ⟨S1x256, .f32⟩
  | .local _ .vmem, ⟨9, _⟩ => ⟨S1x256, .f32⟩
  | .local _ .vmem, ⟨10, _⟩ => ⟨S256x256, .f32⟩
  | .local _ .vmem, ⟨11, _⟩ => ⟨S256x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S4x2048x4096_S8192x4096 : S4x2048x4096.ShapeCasts S8192x4096
  shapeCasts_S4096_S4096x1 : S4096.ShapeCasts S4096x1
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  bitsLt_bf16_f32 : FTy.bits .bf16 < FTy.bits .f32
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x4096 : S256x1.Broadcasts S256x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S256x256_S256x256_0_0 : ∀ a, (![0, 0] : Fin 2 → Nat) a + S256x256.size a ≤ S256x256.size a
  h_S256x256 : 0 < S256x256.numel
  shapeCasts_S8192x4096_S4x2048x4096 : S8192x4096.ShapeCasts S4x2048x4096
  dot_S256x4096_S256x4096_S256x256_1_1_0_0_n_n_wf : DotDims.WF S256x4096 S256x4096 S256x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .i32 = 32 ∨ (Rect.block (s := S4096x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S4096x1.size a
  hwx0_2 : ∀ i : grid0.Coords, EltTy.bits .f32 = 32 ∨ (Rect.block (s := S4096x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S4096x1.size a
  hwx0_3 : ∀ i : grid0.Coords, EltTy.bits .f32 = 32 ∨ (Rect.block (s := S4096x1) S256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x4096.size a
  hwx0_4 : ∀ i : grid0.Coords, EltTy.bits .f32 = 32 ∨ (Rect.block (s := S1x4096) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S8192x4096.size a
  hwx0_5 : ∀ i : grid0.Coords, EltTy.bits .f32 = 32 ∨ (Rect.block (s := S8192x4096) S256x256.size (cc0_transform_5 i) (hinb0_5 i)).WholeWords (EltTy.packing .f32)

variable [Facts₀]

def dot_S256x4096_S256x4096_S256x256_1_1_0_0_n_n : DotDims S256x4096 S256x4096 S256x256 where
  lhsContracting := [1]
  rhsContracting := [1]
  lhsNonContracting := [0]
  rhsNonContracting := [0]
  lhsBatch := []
  rhsBatch := []
  wf := dot_S256x4096_S256x4096_S256x256_1_1_0_0_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S256x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S4096x1 : Shape := ⟨2, ![4096, 1]⟩
abbrev S1x1x4096 : Shape := ⟨3, ![1, 1, 4096]⟩

abbrev nBuf : Space → Nat
  | .hbm => 16
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S4096x1, .f32⟩
  | .hbm, ⟨7, _⟩ => ⟨S4096x4096, .f32⟩
  | .hbm, ⟨8, _⟩ => ⟨S4096x4096, .f32⟩
  | .hbm, ⟨9, _⟩ => ⟨S4096x1, .f32⟩
  | .hbm, ⟨10, _⟩ => ⟨S4096x4096, .f32⟩
  | .hbm, ⟨11, _⟩ => ⟨S4096x4096, .f32⟩
  | .hbm, ⟨12, _⟩ => ⟨S4x2048x4096, .f32⟩
  | .hbm, ⟨13, _⟩ => ⟨S1x1x4096, .f32⟩
  | .hbm, ⟨14, _⟩ => ⟨S4x2048x4096, .f32⟩
  | .hbm, ⟨15, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.LibUnitAxis.lean ====
/-
  Casts and broadcasts across a unit axis, read at an index, at any extents.

  A `keepdims` reduction leaves a unit axis behind, and a row-wise statistic is spread back over its row through one:
  a matrix `[a, b]` is viewed as `[a, 1, b]` and back, a vector `[a]` as the column `[a, 1]`, and a unit axis is
  broadcast over many. A cast keeps every element's row-major position, and a unit axis contributes nothing to it;
  a broadcast reads the operand at the same coordinates, except 0 on each unit axis. The five forms below are stated
  over the literal-size index constructors `ix1 … ix3`, so that they fire on indices built from coordinates.
-/
import Idealize.ShloMosaic.Lib.Pipeline.Value
import Idealize.ShloMosaic.Lib.ValueIdx
import Idealize.ShloMosaic.Lib.ValueLayout
noncomputable section
open Idealize.ShloMosaic Idealize.ShloMosaic.ValueIdx
namespace Cert.Lib.UnitAxis

/-! ## The five forms

A matrix viewed with a unit middle axis and back, a vector viewed as one column, and a unit axis broadcast over
many. Each is a statement about row-major positions (a cast) or about which coordinates are kept (a broadcast). -/

section Layout
variable {α : Type}

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a]` array cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, 1, b]` array broadcast to `[a, m, b]` reads, at `(p, q, c)`, the operand at `(p, 0, c)`. -/
theorem broadcastTo_a1b_amb_apply {a m b : ℕ} (v : (⟨3, ![a, 1, b]⟩ : Shape).Idx → α)
    (h : (⟨3, ![a, 1, b]⟩ : Shape).Broadcasts ⟨3, ![a, m, b]⟩) (p : Fin a) (q : Fin m) (c : Fin b) :
    broadcastTo ⟨3, ![a, m, b]⟩ v h (ix3 p q c) = v (ix3 p (0 : Fin 1) c) := by
  refine broadcastTo_apply v h (ix3 p q c) (ix3 p (0 : Fin 1) c) fun ax => ?_
  match ax with
  | ⟨0, _⟩ =>
    show p.val = if a = 1 then 0 else p.val
    split
    · have := p.isLt; omega
    · rfl
  | ⟨1, _⟩ => rfl
  | ⟨2, _⟩ =>
    show c.val = if b = 1 then 0 else c.val
    split
    · have := c.isLt; omega
    · rfl

end Layout

end Cert.Lib.UnitAxis

end
-- ==== Proof.Spec.lean ====
/-
  A linear layer whose weight matrix is stored as integer codes, one scale and one zero point per output channel.

  For a code matrix q[o, k], zero points zp[o] and scales sc[o] the weight is W[o, k] = (q[o, k] − zp[o]) · sc[o], and the
  layer sends a row x[r, ·] to  out[r, o] = Σ_k x[r, k] · W[o, k] + bias[o].  Everything is read on the extended reals:
  an integer code is its signed value, and nothing below needs a finite operand (no sum is rearranged, no factor moved).

  Two spellings of the same function are stated here.  `linear2` is the layer on matrices, with the per-channel vectors
  given as a column [N, 1] (scales, zero points) and a row [1, N] (bias): the form a tiled matrix kernel computes, at the
  extents of one tile or of the whole arrays alike.  `linear3` is the layer on a batch of sequences [4, 2048, 4096] with
  plain vectors [4096].  `linear3_eq_cast` says they agree when the batch and sequence axes are flattened into rows
  (row r = b · 2048 + s) and the vectors are viewed as a column or a row: a change of layout only.
-/
import Idealize.ShloMosaic.PureOps.Ideal
import Idealize.ShloMosaic.Lib.ValueIdx
import Idealize.ShloMosaic.Lib.Pipeline.Value
import Idealize.ShloMosaic.Lib.ValueLayout
import proofs.«164743_j81097572483510_1_alg».proof.Proof.LibUnitAxis

noncomputable section

open scoped BigOperators

namespace Cert.Dequant

open Idealize.ShloMosaic Idealize.ShloMosaic.ValueIdx

/-- One dequantized weight: the code's signed value, shifted by the channel's zero point, scaled by the channel's scale. -/
def weight (q : BitVec 32) (zp sc : EReal) : EReal := (((q.toInt : ℝ) : EReal) - zp) * sc

/-- The layer on matrices: entry (r, o) is row r of `X` against the dequantized row o of the codes, plus the bias of
    channel o.  Scales and zero points are columns, the bias is a row. -/
def linear2 {M N K : Nat} (X : (⟨2, ![M, K]⟩ : Shape).Idx → EReal) (Q : (⟨2, ![N, K]⟩ : Shape).Idx → BitVec 32)
    (SC ZP : (⟨2, ![N, 1]⟩ : Shape).Idx → EReal) (B : (⟨2, ![1, N]⟩ : Shape).Idx → EReal) :
    (⟨2, ![M, N]⟩ : Shape).Idx → EReal :=
  fun i => (∑ k : Fin K, X (ix2 (i 0) k) * weight (Q (ix2 (i 1) k)) (ZP (ix2 (i 1) (0 : Fin 1))) (SC (ix2 (i 1) (0 : Fin 1))))
    + B (ix2 (0 : Fin 1) (i 1))

/-- The layer on a batch of sequences: entry (b, s, o) is x[b, s, ·] against the dequantized row o, plus the bias of o. -/
def linear3 (x : (⟨3, ![4, 2048, 4096]⟩ : Shape).Idx → EReal) (q : (⟨2, ![4096, 4096]⟩ : Shape).Idx → BitVec 32)
    (sc zp b : (⟨1, ![4096]⟩ : Shape).Idx → EReal) : (⟨3, ![4, 2048, 4096]⟩ : Shape).Idx → EReal :=
  fun i => (∑ k : Fin 4096, x (ix3 (i 0) (i 1) k) * weight (q (ix2 (i 2) k)) (zp (ix1 (i 2))) (sc (ix1 (i 2))))
    + b (ix1 (i 2))

/-- A TILE OF THE LAYER IS THE LAYER ON TILES.  If a tile of x agrees with row r of the whole x along the contraction
    axis, a tile of the codes with row o of the whole codes, and the tile's channel entries (zero point, scale, bias) with
    channel o's, then the layer on the tiles at (p, q) is the layer on the whole arrays at (r, o): the sum has the same
    summands, and the same bias is added. -/
theorem linear2_of_tiles {M N K M' N' : Nat}
    (X : (⟨2, ![M, K]⟩ : Shape).Idx → EReal) (Q : (⟨2, ![N, K]⟩ : Shape).Idx → BitVec 32)
    (SC ZP : (⟨2, ![N, 1]⟩ : Shape).Idx → EReal) (B : (⟨2, ![1, N]⟩ : Shape).Idx → EReal)
    (Xt : (⟨2, ![M', K]⟩ : Shape).Idx → EReal) (Qt : (⟨2, ![N', K]⟩ : Shape).Idx → BitVec 32)
    (SCt ZPt : (⟨2, ![N', 1]⟩ : Shape).Idx → EReal) (Bt : (⟨2, ![1, N']⟩ : Shape).Idx → EReal)
    (r : Fin M) (o : Fin N) (p : Fin M') (q : Fin N')
    (hX : ∀ k : Fin K, Xt (ix2 p k) = X (ix2 r k)) (hQ : ∀ k : Fin K, Qt (ix2 q k) = Q (ix2 o k))
    (hSC : SCt (ix2 q (0 : Fin 1)) = SC (ix2 o (0 : Fin 1))) (hZP : ZPt (ix2 q (0 : Fin 1)) = ZP (ix2 o (0 : Fin 1)))
    (hB : Bt (ix2 (0 : Fin 1) q) = B (ix2 (0 : Fin 1) o)) :
    linear2 Xt Qt SCt ZPt Bt (ix2 p q) = linear2 X Q SC ZP B (ix2 r o) := by
  show (∑ k : Fin K, Xt (ix2 p k) * weight (Qt (ix2 q k)) (ZPt (ix2 q (0 : Fin 1))) (SCt (ix2 q (0 : Fin 1)))) + Bt (ix2 (0 : Fin 1) q)
    = (∑ k : Fin K, X (ix2 r k) * weight (Q (ix2 o k)) (ZP (ix2 o (0 : Fin 1))) (SC (ix2 o (0 : Fin 1)))) + B (ix2 (0 : Fin 1) o)
  rw [hSC, hZP, hB]
  exact congrArg (· + B (ix2 (0 : Fin 1) o)) (Finset.sum_congr rfl fun k _ => by rw [hX k, hQ k])

/-- Row b · 2048 + s of the flattened batch is sequence position (b, s): both have row-major position
    (b · 2048 + s) · 4096 + k at column k. -/
theorem flatten_rows_apply {α : Type} (x : (⟨3, ![4, 2048, 4096]⟩ : Shape).Idx → α)
    (h : (⟨3, ![4, 2048, 4096]⟩ : Shape).ShapeCasts ⟨2, ![8192, 4096]⟩) (b : Fin 4) (s : Fin 2048) (k : Fin 4096)
    (r : Fin 8192) (hr : r.val = b.val * 2048 + s.val) :
    shapeCast ⟨2, ![8192, 4096]⟩ x h (ix2 r k) = x (ix3 b s k) :=
  shapeCast_apply x h _ _ (by
    rw [Shape.rowMajor_val_three, Shape.rowMajor_val_two]
    show (b.val * 2048 + s.val) * 4096 + k.val = r.val * 4096 + k.val
    rw [hr])

/-- And back: position (b, s, o) of the un-flattened result is row b · 2048 + s, column o. -/
theorem unflatten_rows_apply {α : Type} (y : (⟨2, ![8192, 4096]⟩ : Shape).Idx → α)
    (h : (⟨2, ![8192, 4096]⟩ : Shape).ShapeCasts ⟨3, ![4, 2048, 4096]⟩) (b : Fin 4) (s : Fin 2048) (o : Fin 4096)
    (r : Fin 8192) (hr : r.val = b.val * 2048 + s.val) :
    shapeCast ⟨3, ![4, 2048, 4096]⟩ y h (ix3 b s o) = y (ix2 r o) :=
  shapeCast_apply y h _ _ (by
    rw [Shape.rowMajor_val_three, Shape.rowMajor_val_two]
    show r.val * 4096 + o.val = (b.val * 2048 + s.val) * 4096 + o.val
    rw [hr])

/-- THE LAYOUT LAW: flatten the batch into rows, view the channel vectors as a column or a row, apply the matrix form,
    un-flatten the rows — that is the layer on the batch.  Termwise: each factor of each summand is the same entry of
    the same argument, found at the same row-major position. -/
theorem linear3_eq_cast (x : (⟨3, ![4, 2048, 4096]⟩ : Shape).Idx → EReal) (q : (⟨2, ![4096, 4096]⟩ : Shape).Idx → BitVec 32)
    (sc zp b : (⟨1, ![4096]⟩ : Shape).Idx → EReal)
    (hx : (⟨3, ![4, 2048, 4096]⟩ : Shape).ShapeCasts ⟨2, ![8192, 4096]⟩)
    (hcol : (⟨1, ![4096]⟩ : Shape).ShapeCasts ⟨2, ![4096, 1]⟩) (hrow : (⟨1, ![4096]⟩ : Shape).ShapeCasts ⟨2, ![1, 4096]⟩)
    (hy : (⟨2, ![8192, 4096]⟩ : Shape).ShapeCasts ⟨3, ![4, 2048, 4096]⟩) :
    shapeCast ⟨3, ![4, 2048, 4096]⟩
        (linear2 (shapeCast ⟨2, ![8192, 4096]⟩ x hx) q (shapeCast ⟨2, ![4096, 1]⟩ sc hcol) (shapeCast ⟨2, ![4096, 1]⟩ zp hcol)
          (shapeCast ⟨2, ![1, 4096]⟩ b hrow)) hy
      = linear3 x q sc zp b := by
  funext i
  obtain ⟨bb, s, o, rfl⟩ : ∃ (bb : Fin 4) (s : Fin 2048) (o : Fin 4096), i = ix3 bb s o := ⟨i 0, i 1, i 2, eq_ix3 i⟩
  have hlt : bb.val * 2048 + s.val < 8192 := by have := bb.isLt; have := s.isLt; omega
  rw [unflatten_rows_apply _ hy bb s o ⟨bb.val * 2048 + s.val, hlt⟩ rfl]
  show (∑ k : Fin 4096, shapeCast ⟨2, ![8192, 4096]⟩ x hx (ix2 ⟨bb.val * 2048 + s.val, hlt⟩ k)
        * weight (q (ix2 o k)) (shapeCast ⟨2, ![4096, 1]⟩ zp hcol (ix2 o (0 : Fin 1))) (shapeCast ⟨2, ![4096, 1]⟩ sc hcol (ix2 o (0 : Fin 1))))
      + shapeCast ⟨2, ![1, 4096]⟩ b hrow (ix2 (0 : Fin 1) o)
    = (∑ k : Fin 4096, x (ix3 bb s k) * weight (q (ix2 o k)) (zp (ix1 o)) (sc (ix1 o))) + b (ix1 o)
  rw [Cert.Lib.UnitAxis.shapeCast_a_a1_apply zp hcol o 0, Cert.Lib.UnitAxis.shapeCast_a_a1_apply sc hcol o 0,
    shapeCast_a_1a_apply b hrow 0 o]
  refine congrArg (· + b (ix1 o)) (Finset.sum_congr rfl fun k _ => ?_)
  rw [flatten_rows_apply x hx bb s k ⟨bb.val * 2048 + s.val, hlt⟩ rfl]

end Cert.Dequant

end
-- ==== Proof.Reference.lean ====
/-
  The reference computes the layer on the batch of sequences.

  Read one operation at a time at an index (b, s, o): the codes are converted to their signed values; the zero points and
  the scales are each spread from a vector over channels to a full [4096, 4096] matrix through a column [4096, 1], so at
  (o, k) they read channel o; the difference and the product give the weight W[o, k]; the contraction of x[b, s, ·] with
  W[o, ·] is the sum over k; and the bias, spread over batch and sequence through [1, 1, 4096], reads channel o.  That is
  `linear3` term for term — the only work is identifying the composed index maps with (b, s, k), (o, k) and o.
-/
import proofs.«164743_j81097572483510_1_alg».proof.Proof.Gen.ReferenceIdeal.Read
import proofs.«164743_j81097572483510_1_alg».proof.Proof.Spec

noncomputable section

open scoped BigOperators

namespace Cert.Dequant.Reference

open Idealize.ShloMosaic Idealize.ShloMosaic.ValueIdx Cert.ReferenceIdeal Cert.ReferenceIdeal.Read

/-- The left operand of the contraction at (b, s, o), k is x[b, s, k]. -/
theorem lhs_index (b : Fin 4) (s : Fin 2048) (o k : Fin 4096) : lidx_main_v7 (ix3 b s o) k = ix3 b s k :=
  funext fun a => Fin.ext (by match a with | ⟨0, _⟩ => rfl | ⟨1, _⟩ => rfl | ⟨2, _⟩ => rfl)

/-- The right operand at (b, s, o), k is the weight at (o, k). -/
theorem rhs_index (b : Fin 4) (s : Fin 2048) (o k : Fin 4096) : ridx_main_v7 (ix3 b s o) k = ix2 o k :=
  funext fun a => Fin.ext (by match a with | ⟨0, _⟩ => rfl | ⟨1, _⟩ => rfl)

/-- The zero points spread to a matrix read, at (o, k), channel o. -/
theorem zp_index (o k : Fin 4096) : idx_main_v1 (idx_main_v2 (ix2 o k)) = ix1 o :=
  funext fun a => Fin.ext (by match a with | ⟨0, _⟩ => rfl)

/-- So do the scales. -/
theorem scale_index (o k : Fin 4096) : idx_main_v4 (idx_main_v5 (ix2 o k)) = ix1 o :=
  funext fun a => Fin.ext (by match a with | ⟨0, _⟩ => rfl)

/-- The bias spread over batch and sequence reads, at (b, s, o), channel o. -/
theorem bias_index (b : Fin 4) (s : Fin 2048) (o : Fin 4096) : idx_main_v8 (idx_main_v9 (ix3 b s o)) = ix1 o :=
  funext fun a => Fin.ext (by match a with | ⟨0, _⟩ => rfl)

/-- The reference's result, as a function of its five arguments, is the layer on the batch. -/
theorem result_eq (x : (⟨S4x2048x4096, .f32⟩ : BufTy).Contents (Elt Ideal)) (q : (⟨S4096x4096, .i32⟩ : BufTy).Contents (Elt Ideal))
    (sc zp bias : (⟨S4096, .f32⟩ : BufTy).Contents (Elt Ideal)) :
    val_main_v10 (F := Ideal) x q sc zp bias = linear3 x q sc zp bias := by
  funext i
  obtain ⟨b, s, o, rfl⟩ : ∃ (b : Fin 4) (s : Fin 2048) (o : Fin 4096), i = ix3 b s o := ⟨i 0, i 1, i 2, eq_ix3 i⟩
  rw [val_main_v10_apply, val_main_v7_apply, val_main_v9_apply, val_main_v8_apply, bias_index]
  show (∑ k : Fin 4096, x (lidx_main_v7 (ix3 b s o) k) * val_main_v6 (F := Ideal) q sc zp (ridx_main_v7 (ix3 b s o) k)) + bias (ix1 o)
    = (∑ k : Fin 4096, x (ix3 b s k) * weight (q (ix2 o k)) (zp (ix1 o)) (sc (ix1 o))) + bias (ix1 o)
  refine congrArg (· + bias (ix1 o)) (Finset.sum_congr rfl fun k _ => ?_)
  rw [lhs_index, rhs_index, val_main_v6_apply, val_main_v3_apply, val_main_v0_apply, val_main_v2_apply, val_main_v1_apply,
    val_main_v5_apply, val_main_v4_apply, zp_index, scale_index]
  rfl

end Cert.Dequant.Reference

end
-- ==== Proof.Body.lean ====
/-
  What one grid point computes: the layer on one tile.

  The body loads a [256, 4096] tile of rows of x, a [256, 4096] tile of rows of the codes, the matching [256, 1] columns
  of zero points and scales and the matching [1, 256] row of the bias.  It dequantizes the code tile (subtract the zero
  point of the row, multiply by the scale of the row, each spread along the row), multiplies the x tile by the TRANSPOSE of
  the weight tile on the matrix unit — both operands are contracted along their second axis, so entry (p, q) pairs row p
  of x with row q of the weights — into a zero accumulator, and adds the bias row to every row of the product.  The
  roundings to bf16 before the product are the identity on extended reals.  Index by index that is `linear2` at the
  tile's extents.
-/
import proofs.«164743_j81097572483510_1_alg».proof.Proof.Gen.KernelIdeal.Skeleton
import proofs.«164743_j81097572483510_1_alg».proof.Proof.Spec
import Idealize.ShloMosaic.PureOps.Ideal.Laws

noncomputable section

open scoped BigOperators

namespace Cert.Dequant.Body

open Idealize.ShloMosaic Idealize.ShloMosaic.ValueIdx Cert.KernelIdeal Cert.KernelIdeal.Gen

/-- The product's left operand at output (p, q) keeps the output's row on its first axis. -/
theorem lhs_row (i : S256x256.Idx) (c : dot_S256x4096_S256x4096_S256x256_1_1_0_0_n_n.contr.Idx) :
    (dot_S256x4096_S256x4096_S256x256_1_1_0_0_n_n.lhsIdx i c 0).val = (i 0).val := by
  unfold DotDims.lhsIdx
  rw [dif_neg (show ¬(0 : Fin S256x4096.rank) ∈ dot_S256x4096_S256x4096_S256x256_1_1_0_0_n_n.lhsBatch by decide),
    dif_pos (show (0 : Fin S256x4096.rank) ∈ dot_S256x4096_S256x4096_S256x256_1_1_0_0_n_n.lhsNonContracting by decide)]
  rfl

/-- The right operand keeps the output's COLUMN on its first axis: the product is against the transpose. -/
theorem rhs_row (i : S256x256.Idx) (c : dot_S256x4096_S256x4096_S256x256_1_1_0_0_n_n.contr.Idx) :
    (dot_S256x4096_S256x4096_S256x256_1_1_0_0_n_n.rhsIdx i c 0).val = (i 1).val := by
  unfold DotDims.rhsIdx
  rw [dif_neg (show ¬(0 : Fin S256x4096.rank) ∈ dot_S256x4096_S256x4096_S256x256_1_1_0_0_n_n.rhsBatch by decide),
    dif_pos (show (0 : Fin S256x4096.rank) ∈ dot_S256x4096_S256x4096_S256x256_1_1_0_0_n_n.rhsNonContracting by decide)]
  rfl

/-- The matrix unit's product of two [256, 4096] tiles along their second axes, into a zero accumulator, at (p, q):
    the sum over k of L[p, k] · R[q, k]. -/
theorem tile_product {φ₁ φ₂ : FTy} (Lt : FVec Ideal S256x4096 φ₁) (Rt : FVec Ideal S256x4096 φ₂) (p q : Fin 256) :
    FloatOps.matmul dot_S256x4096_S256x4096_S256x256_1_1_0_0_n_n none Lt Rt (constant S256x256 .f32 0x00000000#32) (ix2 p q)
      = ∑ k : Fin 4096, Lt (ix2 p k) * Rt (ix2 q k) := by
  rw [Ideal.matmul_constant_zero_apply,
    ← Equiv.sum_comp (contrEquiv1 dot_S256x4096_S256x4096_S256x256_1_1_0_0_n_n 4096 rfl rfl).symm]
  refine Finset.sum_congr rfl fun k _ => ?_
  have hk := contrEquiv1_symm_val dot_S256x4096_S256x4096_S256x256_1_1_0_0_n_n 4096 rfl rfl k
  have el : dot_S256x4096_S256x4096_S256x256_1_1_0_0_n_n.lhsIdx (ix2 p q)
      ((contrEquiv1 dot_S256x4096_S256x4096_S256x256_1_1_0_0_n_n 4096 rfl rfl).symm k) = ix2 p k :=
    funext fun a => Fin.ext (by
      match a with
      | ⟨0, _⟩ => exact lhs_row _ _
      | ⟨1, _⟩ => exact ((dot_S256x4096_S256x4096_S256x256_1_1_0_0_n_n.lhsIdx_val_of_single rfl _ _).trans hk))
  have er : dot_S256x4096_S256x4096_S256x256_1_1_0_0_n_n.rhsIdx (ix2 p q)
      ((contrEquiv1 dot_S256x4096_S256x4096_S256x256_1_1_0_0_n_n 4096 rfl rfl).symm k) = ix2 q k :=
    funext fun a => Fin.ext (by
      match a with
      | ⟨0, _⟩ => exact rhs_row _ _
      | ⟨1, _⟩ => exact ((dot_S256x4096_S256x4096_S256x256_1_1_0_0_n_n.rhsIdx_val_of_single rfl _ _).trans hk))
  rw [el, er]

/-- THE BODY'S STORED VALUE is the layer on the tile: x tile `xt`, code tile `qt`, zero points `zpt` and scales `sct` as
    columns, bias `bt` as a row. -/
theorem payload_eq (xt : Vec Ideal S256x4096 .f32) (qt : Vec Ideal S256x4096 .i32) (zpt sct : Vec Ideal S256x1 .f32)
    (bt : Vec Ideal S1x256 .f32) :
    k0_pay1 (F := Ideal) xt qt zpt sct bt = linear2 xt qt sct zpt bt := by
  funext j
  obtain ⟨p, q, rfl⟩ : ∃ (p q : Fin 256), j = ix2 p q := ⟨j 0, j 1, eq_ix2 j⟩
  unfold k0_pay1
  refine (addf_apply _ _ _).trans ?_
  refine congrArg₂ (· + ·) ((tile_product _ _ p q).trans (Finset.sum_congr rfl fun k _ => ?_)) ?_
  · refine congrArg₂ (· * ·) (congrFun (shapeCast_self xt _) _) ?_
    show ((((qt (ix2 q k)).toInt : ℝ) : EReal) - broadcastTo S256x4096 (shapeCast S256x1 zpt _) _ (ix2 q k))
        * broadcastTo S256x4096 (shapeCast S256x1 sct _) _ (ix2 q k) = weight (qt (ix2 q k)) (zpt (ix2 q 0)) (sct (ix2 q 0))
    rw [shapeCast_self, shapeCast_self, Cert.Lib.UnitAxis.broadcastTo_a1_ab_apply, Cert.Lib.UnitAxis.broadcastTo_a1_ab_apply]
    rfl
  · show broadcastTo S256x256 (shapeCast S1x256 bt _) _ (ix2 p q) = bt (ix2 (0 : Fin 1) q)
    rw [shapeCast_self, broadcastTo_1b_ab_apply]

end Cert.Dequant.Body

end
-- ==== Proof.Region.lean ====
/-
  From tiles to the whole matrix.

  The grid has 32 × 16 points; point (i, j) reads rows 256·i … 256·i+255 of the flattened x, rows 256·j … 256·j+255 of the
  codes with the same rows of the zero-point and scale columns, columns 256·j … of the bias row, and writes the
  [256, 256] tile (i, j) of the [8192, 4096] result.  By the body's value (the layer on the tile) and the pure fact that a
  tile of the layer is the layer on tiles, what point (i, j) writes back is tile (i, j) of ONE matrix: the layer applied
  to the whole arrays as the region finds them.  The tiles cover the matrix — entry (r, o) lies in tile (r / 256, o / 256) —
  so after the last point the result array is that matrix.
-/
import proofs.«164743_j81097572483510_1_alg».proof.Proof.Gen.KernelIdeal.Frame
import proofs.«164743_j81097572483510_1_alg».proof.Proof.Body
import Idealize.ShloMosaic.Lib.Pipeline.Value

set_option maxRecDepth 16384

noncomputable section

open scoped BigOperators

namespace Cert.Dequant.Region

open Idealize.ShloMosaic Idealize.ShloMosaic.TcCoe Idealize.ShloMosaic.ValueIdx Idealize.SL.Sem Cert.KernelIdeal Cert.KernelIdeal.Gen
open Idealize.ShloMosaic.Pipeline (Dat)

variable (m : (ℓ : Loc nD τ sig) → Buf (Elt Ideal) ℓ)

/-- The body's loads and its store go through whole-tile rectangles at offset zero. -/
theorem zero_offsets : (![0, 0] : Fin 2 → Nat) = fun _ => 0 := funext fun a => by fin_cases a <;> rfl

/-- The printed block-index maps, decided over the 512 grid points: x moves with the output's row tile, the codes, zero
    points, scales and bias with the output's column tile, every other block index is 0, and the output's tile indices
    stay below 32 and 16. -/
theorem index_facts : ∀ t : Fin cfg0.N,
    win0_0.index t (0 : Fin 2) = win0_5.index t (0 : Fin 2) ∧ win0_0.index t (1 : Fin 2) = 0
    ∧ win0_1.index t (0 : Fin 2) = win0_5.index t (1 : Fin 2) ∧ win0_1.index t (1 : Fin 2) = 0
    ∧ win0_2.index t (0 : Fin 2) = win0_5.index t (1 : Fin 2) ∧ win0_2.index t (1 : Fin 2) = 0
    ∧ win0_3.index t (0 : Fin 2) = win0_5.index t (1 : Fin 2) ∧ win0_3.index t (1 : Fin 2) = 0
    ∧ win0_4.index t (0 : Fin 2) = 0 ∧ win0_4.index t (1 : Fin 2) = win0_5.index t (1 : Fin 2)
    ∧ win0_5.index t (0 : Fin 2) < 32 ∧ win0_5.index t (1 : Fin 2) < 16 :=
  (by decide +kernel : ∀ t : Fin grid0.N, _)

/-- The layer applied to the five arrays the region finds. -/
abbrev result (c : Dev nD) : S8192x4096.Idx → EReal :=
  linear2 (M := 8192) (N := 4096) (K := 4096) (V m c main_v0) (V m c main_arg1) (V m c main_v1) (V m c main_v2) (V m c main_v3)

/-- WHAT POINT `t` WRITES BACK is tile `t` of `result`: each factor of each summand is read at the same array position
    on both sides (a tile's entry sits at tile index × tile size + its coordinate inside the tile). -/
theorem flushed_eq (c : Dev nD) (t : Fin cfg0.N) :
    (dats m 0 c).flushed 5 t = ((cfg0.win 5).blk t).view.read (Elt Ideal) (result m c) := by
  show (cfg0.win 5).cut (grid0.coords t) ((dats m 0 c).after 5 t) = _
  rw [after0_5]
  unfold out0_5
  rw [View.canon_unit_zero zero_offsets]
  simp only [View.ld_unit_zero (S := S256x4096) zero_offsets, View.ld_unit_zero (S := S256x1) zero_offsets,
    View.ld_unit_zero (S := S1x256) zero_offsets]
  rw [Body.payload_eq (iblk m c 0 t) (iblk m c 1 t) (iblk m c 3 t) (iblk m c 2 t) (iblk m c 4 t)]
  obtain ⟨e00, e01, e10, e11, e20, e21, e30, e31, e40, e41, b0, b1⟩ := index_facts t
  show (linear2 (M := 256) (N := 256) (K := 4096) (iblk m c 0 t) (iblk m c 1 t) (iblk m c 2 t) (iblk m c 3 t) (iblk m c 4 t)
      : S256x256.Idx → EReal) = fun j => result m c (((cfg0.win 5).blk t).view.emb j)
  funext j
  obtain ⟨p, q, rfl⟩ : ∃ (p q : Fin 256), j = ix2 p q := ⟨j 0, j 1, eq_ix2 j⟩
  have hp : p.val < 256 := p.isLt
  have hq : q.val < 256 := q.isLt
  have hr : win0_5.index t (0 : Fin 2) * 256 + p.val < 8192 := by omega
  have ho : win0_5.index t (1 : Fin 2) * 256 + q.val < 4096 := by omega
  have hemb : ((cfg0.win 5).blk t).view.emb (ix2 p q)
      = (ix2 (⟨win0_5.index t (0 : Fin 2) * 256 + p.val, hr⟩ : Fin 8192) (⟨win0_5.index t (1 : Fin 2) * 256 + q.val, ho⟩ : Fin 4096) : S8192x4096.Idx) :=
    funext fun a => Fin.ext (by
      match a with
      | ⟨0, _⟩ => show win0_5.index t (0 : Fin 2) * 256 + 1 * p.val = win0_5.index t (0 : Fin 2) * 256 + p.val; omega
      | ⟨1, _⟩ => show win0_5.index t (1 : Fin 2) * 256 + 1 * q.val = win0_5.index t (1 : Fin 2) * 256 + q.val; omega)
  rw [hemb]
  refine linear2_of_tiles (M := 8192) (N := 4096) (K := 4096) (M' := 256) (N' := 256) (V m c main_v0) (V m c main_arg1) (V m c main_v1) (V m c main_v2) (V m c main_v3)
    (iblk m c 0 t) (iblk m c 1 t) (iblk m c 2 t) (iblk m c 3 t) (iblk m c 4 t) _ _ p q (fun k => ?_) (fun k => ?_) ?_ ?_ ?_
  · have hk : k.val < 4096 := k.isLt
    show V m c main_v0 (((cfg0.win 0).blk t).view.emb (ix2 p k)) = _
    refine congrArg (V m c main_v0) (funext fun a => Fin.ext ?_)
    match a with
    | ⟨0, _⟩ => show win0_0.index t (0 : Fin 2) * 256 + 1 * p.val = win0_5.index t (0 : Fin 2) * 256 + p.val; omega
    | ⟨1, _⟩ => show win0_0.index t (1 : Fin 2) * 4096 + 1 * k.val = k.val; omega
  · have hk : k.val < 4096 := k.isLt
    show V m c main_arg1 (((cfg0.win 1).blk t).view.emb (ix2 q k)) = _
    refine congrArg (V m c main_arg1) (funext fun a => Fin.ext ?_)
    match a with
    | ⟨0, _⟩ => show win0_1.index t (0 : Fin 2) * 256 + 1 * q.val = win0_5.index t (1 : Fin 2) * 256 + q.val; omega
    | ⟨1, _⟩ => show win0_1.index t (1 : Fin 2) * 4096 + 1 * k.val = k.val; omega
  · show V m c main_v1 (((cfg0.win 2).blk t).view.emb (ix2 q (0 : Fin 1))) = _
    refine congrArg (V m c main_v1) (funext fun a => Fin.ext ?_)
    match a with
    | ⟨0, _⟩ => show win0_2.index t (0 : Fin 2) * 256 + 1 * q.val = win0_5.index t (1 : Fin 2) * 256 + q.val; omega
    | ⟨1, _⟩ => show win0_2.index t (1 : Fin 2) * 1 + 1 * 0 = 0; omega
  · show V m c main_v2 (((cfg0.win 3).blk t).view.emb (ix2 q (0 : Fin 1))) = _
    refine congrArg (V m c main_v2) (funext fun a => Fin.ext ?_)
    match a with
    | ⟨0, _⟩ => show win0_3.index t (0 : Fin 2) * 256 + 1 * q.val = win0_5.index t (1 : Fin 2) * 256 + q.val; omega
    | ⟨1, _⟩ => show win0_3.index t (1 : Fin 2) * 1 + 1 * 0 = 0; omega
  · show V m c main_v3 (((cfg0.win 4).blk t).view.emb (ix2 (0 : Fin 1) q)) = _
    refine congrArg (V m c main_v3) (funext fun a => Fin.ext ?_)
    match a with
    | ⟨0, _⟩ => show win0_4.index t (0 : Fin 2) * 1 + 1 * 0 = 0; omega
    | ⟨1, _⟩ => show win0_4.index t (1 : Fin 2) * 256 + 1 * q.val = win0_5.index t (1 : Fin 2) * 256 + q.val; omega

/-- An index of the result matrix is in point `t`'s tile iff each coordinate is in the tile's range on its axis. -/
theorem mem_tile (t : Fin cfg0.N) (i : S8192x4096.Idx) :
    i ∈ ((cfg0.win 5).blk t).view.set ↔ ∀ a : Fin 2, win0_5.index t a * S256x256.size a ≤ (i a).val
      ∧ (i a).val < win0_5.index t a * S256x256.size a + S256x256.size a := by
  show i ∈ ((View.whole main_v4).slice (win0_5.rect t)).set ↔ _
  rw [View.set_slice_whole, Rect.mem_set_unit]
  exact Iff.rfl

/-- The grid point of tile (q0, q1): the grid is walked row tile by row tile. -/
def pointOf (q0 : Fin 32) (q1 : Fin 16) : Fin cfg0.N :=
  ⟨q0.val * 16 + q1.val, by show _ < grid0.N; rw [N_0]; have := q0.isLt; have := q1.isLt; omega⟩

/-- That point writes tile (q0, q1), decided over the 512 tiles. -/
theorem index_at : ∀ (q0 : Fin 32) (q1 : Fin 16), win0_5.index (pointOf q0 q1) = ![q0.val, q1.val] := by
  decide +kernel

/-- THE TILES COVER THE MATRIX: entry (r, o) is in the tile written at point (r / 256, o / 256). -/
theorem covered (i : S8192x4096.Idx) :
    ∃ t : Fin cfg0.N, (cfg0.win 5).flush t = true ∧ i ∈ ((cfg0.win 5).blk t).view.set := by
  have hi0 : (i 0).val < 8192 := (i 0).isLt
  have hi1 : (i 1).val < 4096 := (i 1).isLt
  have h0 : (i 0).val / 256 < 32 := by omega
  have h1 : (i 1).val / 256 < 16 := by omega
  have ht := index_at ⟨(i 0).val / 256, h0⟩ ⟨(i 1).val / 256, h1⟩
  have q0 : win0_5.index (pointOf ⟨(i 0).val / 256, h0⟩ ⟨(i 1).val / 256, h1⟩) (0 : Fin 2) = (i 0).val / 256 := congrFun ht 0
  have q1 : win0_5.index (pointOf ⟨(i 0).val / 256, h0⟩ ⟨(i 1).val / 256, h1⟩) (1 : Fin 2) = (i 1).val / 256 := congrFun ht 1
  refine ⟨pointOf ⟨(i 0).val / 256, h0⟩ ⟨(i 1).val / 256, h1⟩, flush0_5 _, ?_⟩
  rw [mem_tile]
  intro a
  match a with
  | ⟨0, _⟩ =>
    show win0_5.index _ (0 : Fin 2) * 256 ≤ (i 0).val ∧ (i 0).val < win0_5.index _ (0 : Fin 2) * 256 + 256
    rw [q0]; omega
  | ⟨1, _⟩ =>
    show win0_5.index _ (1 : Fin 2) * 256 ≤ (i 1).val ∧ (i 1).val < win0_5.index _ (1 : Fin 2) * 256 + 256
    rw [q1]; omega

/-- THE RESULT ARRAY after the last grid point is the layer applied to the arrays the region found. -/
theorem final (c : Dev nD) : (dats m 0 c).arrAt 5 cfg0.N = result m c :=
  (dats m 0 c).arrAt_eq_of_cover 5 (result m c) (fun t _ => flushed_eq m c t) covered

end Cert.Dequant.Region

end
-- ==== Proof.Host.lean ====
/-
  The layout changes around the tiled product, as values.

  Before the product the program flattens the batch of sequences [4, 2048, 4096] into rows [8192, 4096], and views the
  scales and the zero points [4096] as columns [4096, 1] and the bias as a row [1, 4096]; the code matrix goes in as
  launched.  After it, the product's [8192, 4096] result is un-flattened into [4, 2048, 4096].  Each of the five is a
  row-major re-reading of one array; nothing is computed.
-/
import proofs.«164743_j81097572483510_1_alg».proof.Proof.Gen.KernelIdeal.Frame
import proofs.«164743_j81097572483510_1_alg».proof.Proof.Spec
import Idealize.ShloMosaic.Lib.Pipeline.Value
import Idealize.ShloMosaic.Lib.StableHlo.Run

set_option maxRecDepth 16384

noncomputable section

namespace Cert.Dequant.Host

open Idealize.ShloMosaic Idealize.ShloMosaic.TcCoe Idealize.ShloMosaic.ValueIdx Idealize.SL.Sem Cert.KernelIdeal Cert.KernelIdeal.Gen
open Idealize.ShloMosaic.StableHlo

variable (m : (ℓ : Loc nD τ sig) → Buf (Elt Ideal) ℓ)

/-- The product's x operand is the batch flattened into rows. -/
theorem entry_x (c : Dev nD) :
    (V m c main_v0 : S8192x4096.Idx → EReal)
      = shapeCast S8192x4096 (m ((c : Thread nD τ).loc main_arg0)) Facts₀.shapeCasts_S4x2048x4096_S8192x4096 := by
  show StableHlo.after hostOps0 (fun b => m (c, b)) (Proc.devRef .tc main_v0) = _
  after_results
  rfl

/-- Its scales operand is the scales vector as a column. -/
theorem entry_scales (c : Dev nD) :
    (V m c main_v1 : S4096x1.Idx → EReal)
      = shapeCast S4096x1 (m ((c : Thread nD τ).loc main_arg2)) Facts₀.shapeCasts_S4096_S4096x1 := by
  show StableHlo.after hostOps0 (fun b => m (c, b)) (Proc.devRef .tc main_v1) = _
  after_results
  rfl

/-- Its zero-points operand is the zero-points vector as a column. -/
theorem entry_zero_points (c : Dev nD) :
    (V m c main_v2 : S4096x1.Idx → EReal)
      = shapeCast S4096x1 (m ((c : Thread nD τ).loc main_arg3)) Facts₀.shapeCasts_S4096_S4096x1 := by
  show StableHlo.after hostOps0 (fun b => m (c, b)) (Proc.devRef .tc main_v2) = _
  after_results
  rfl

/-- Its bias operand is the bias vector as a row. -/
theorem entry_bias (c : Dev nD) :
    (V m c main_v3 : S1x4096.Idx → EReal)
      = shapeCast S1x4096 (m ((c : Thread nD τ).loc main_arg4)) Facts₀.shapeCasts_S4096_S1x4096 := by
  show StableHlo.after hostOps0 (fun b => m (c, b)) (Proc.devRef .tc main_v3) = _
  after_results
  rfl

/-- The program's result is the product's result array, as the last grid point leaves it, un-flattened. -/
theorem exit_result (c : Dev nD) :
    (Pipeline.afterTail₀ cfgs (dats m) 0 (V0 m) [hostOps1] c main_v5 : S4x2048x4096.Idx → EReal)
      = shapeCast S4x2048x4096 ((dats m 0 c).arrAt 5 cfg0.N) Facts₀.shapeCasts_S8192x4096_S4x2048x4096 := by
  unfold Pipeline.afterTail₀
  show StableHlo.after hostOps1 _ (Proc.devRef .tc main_v5) = _
  after_results
  have hw : Pipeline.withArrays (cfgs 0).spec c (V0 m c) (fun w => (dats m 0 c).arrAt w (cfgs 0).N) (Proc.devRef .tc main_v4)
      = (dats m 0 c).arrAt 5 cfg0.N :=
    Pipeline.withArrays_arr spec0 launch0.win.arr_inj c (V0 m c) (fun w => (dats m 0 c).arrAt w cfg0.N) 5
  rw [hw]
  rfl

end Cert.Dequant.Host

end
-- ==== Proof.KernelRun.lean ====
/-
  The idealized kernel's run, read as a value.

  Around the tiled matrix product the program only changes layouts: before it, the batch of sequences is flattened into
  rows and the three channel vectors are viewed as two columns and a row; after it, the rows of the result are un-flattened
  into batch and sequence.  With the result matrix known (the layer on the arrays the product finds) and the layout law of
  the specification, the program's result is the layer on the batch of sequences, applied to the arguments as launched.
-/
import proofs.«164743_j81097572483510_1_alg».proof.Proof.Region
import proofs.«164743_j81097572483510_1_alg».proof.Proof.Host

set_option maxRecDepth 16384

noncomputable section

namespace Cert.Dequant.Kernel

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (ρ : Dev nD → PrngReg)

/-- The matrix the product leaves, in terms of the program's arguments: the layer on the flattened x, the codes as
    launched, and the channel vectors as columns and a row. -/
theorem result_of_args (c : Dev nD) :
    Region.result m c
      = linear2 (M := 8192) (N := 4096) (K := 4096)
          (shapeCast S8192x4096 (m ((c : Thread nD τ).loc main_arg0)) Facts₀.shapeCasts_S4x2048x4096_S8192x4096)
          (m ((c : Thread nD τ).loc main_arg1))
          (shapeCast S4096x1 (m ((c : Thread nD τ).loc main_arg2)) Facts₀.shapeCasts_S4096_S4096x1)
          (shapeCast S4096x1 (m ((c : Thread nD τ).loc main_arg3)) Facts₀.shapeCasts_S4096_S4096x1)
          (shapeCast S1x4096 (m ((c : Thread nD τ).loc main_arg4)) Facts₀.shapeCasts_S4096_S1x4096) := by
  show linear2 (M := 8192) (N := 4096) (K := 4096) (V m c main_v0) (V m c main_arg1) (V m c main_v1) (V m c main_v2) (V m c main_v3) = _
  rw [Host.entry_x, V_main_arg1, Host.entry_scales, Host.entry_zero_points, Host.entry_bias]

/-- THE PROGRAM'S RESULT is the layer on the batch of sequences, of the arguments as launched. -/
theorem value (c : Dev nD) :
    (Pipeline.afterTail₀ cfgs (dats m) 0 (V0 m) [hostOps1] c main_v5 : S4x2048x4096.Idx → EReal)
      = linear3 (m ((c : Thread nD τ).loc main_arg0)) (m ((c : Thread nD τ).loc main_arg1)) (m ((c : Thread nD τ).loc main_arg2))
          (m ((c : Thread nD τ).loc main_arg3)) (m ((c : Thread nD τ).loc main_arg4)) := by
  rw [Host.exit_result, Region.final, result_of_args]
  exact linear3_eq_cast _ _ _ _ _ _ _ _ _

/-- Every weakly fair execution of the idealized kernel terminates with its result at the layer of its arguments, the
    arguments unchanged: the generated frame run, with the result buffer read through the lines after the product. -/
theorem run : θ_run defs (onTc (τ := τ) (main (F := Ideal))) ⟨m, fun _ => 0, ρ⟩ (fun r => ∀ c : Dev nD,
      r.2.mem ((c.tc : Thread nD τ).loc main_v5)
        = linear3 (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v5 (Pipeline.mem_restRefs_of main_v5 (by decide) (by decide))).trans (value m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.Dequant.Kernel

end
-- ==== Proof.lean ====
/-
  A weight-only-quantized linear layer as a tiled matrix kernel, against its plain reference: equal on the extended reals.

  Both programs compute  out[b, s, o] = Σ_k x[b, s, k] · ((q[o, k] − zp[o]) · sc[o]) + bias[o]  over a batch of sequences
  x[4, 2048, 4096], integer codes q[4096, 4096] and per-channel scales, zero points and bias.  The kernel flattens batch and
  sequence into 8192 rows, walks a 32 × 16 grid of [256, 256] output tiles, dequantizes a tile of codes and multiplies
  the x tile by its transpose on the matrix unit (full contraction length in one step, bf16 roundings that are the
  identity on extended reals), adds the bias row, and un-flattens the rows at the end.  The reference dequantizes the whole
  code matrix, contracts x with it along the feature axis and adds the bias.  The two sums have the same summands in the
  same order, so no finiteness of the inputs is used: the proof is a re-indexing.

  The pieces: the specification and its layout law; the reference's result read one operation at a time; the body's
  stored value at an index; the tiles assembled into the whole matrix; the layout changes around the product; the
  kernel's run read as a value.  The idealization pass rewrote nothing, so the idealized kernel is the kernel's own text
  read on the extended reals and that conjunct is trivial.  The three termination-and-arguments-unchanged conjuncts are
  the generated frames (for the reference: its generated run with the result dropped).
-/
import proofs.«164743_j81097572483510_1_alg».proof.Defs
import proofs.«164743_j81097572483510_1_alg».proof.Proof.Gen.Kernel
import proofs.«164743_j81097572483510_1_alg».proof.Proof.Gen.Kernel.Skeleton
import proofs.«164743_j81097572483510_1_alg».proof.Proof.Gen.Kernel.Launch
import proofs.«164743_j81097572483510_1_alg».proof.Proof.Gen.Kernel.Points
import proofs.«164743_j81097572483510_1_alg».proof.Proof.Gen.Kernel.Frame
import proofs.«164743_j81097572483510_1_alg».proof.Proof.Gen.KernelIdeal
import proofs.«164743_j81097572483510_1_alg».proof.Proof.Gen.KernelIdeal.Skeleton
import proofs.«164743_j81097572483510_1_alg».proof.Proof.Gen.KernelIdeal.Launch
import proofs.«164743_j81097572483510_1_alg».proof.Proof.Gen.KernelIdeal.Points
import proofs.«164743_j81097572483510_1_alg».proof.Proof.Gen.KernelIdeal.Frame
import proofs.«164743_j81097572483510_1_alg».proof.Proof.Gen.ReferenceIdeal
import proofs.«164743_j81097572483510_1_alg».proof.Proof.Gen.ReferenceIdeal.Run
import proofs.«164743_j81097572483510_1_alg».proof.Proof.Gen.ReferenceIdeal.Read
import proofs.«164743_j81097572483510_1_alg».proof.Proof.Gen.Pre_finite_inputs
import proofs.«164743_j81097572483510_1_alg».proof.Proof.Reference
import proofs.«164743_j81097572483510_1_alg».proof.Proof.KernelRun
import Idealize.ShloMosaic.Adequacy
import Idealize.ShloMosaic.Init

noncomputable section

namespace Cert.Proof

open Idealize.ShloMosaic Idealize.ShloMosaic.TcCoe Idealize.SL.Sem

/-- The kernel as printed terminates on every weakly fair execution and leaves its arguments as launched. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run, with the clause about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- On the extended reals, from memories agreeing on the five arguments, both programs end with the layer of those
    arguments in their result: the kernel by its run read as a value, the reference by its run read one operation at
    a time, each argument of the reference replaced by the kernel's by the agreement. -/
theorem algebraic : Cert.algebraic_KernelIdeal_ReferenceIdeal := by
  intro m ρ m' ρ' _ hagree
  refine ⟨_, Cert.Dequant.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.Dequant.Reference.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
